-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S16x128 : Shape := ⟨2, ![16, 128]⟩
abbrev S4x1024x1024 : Shape := ⟨3, ![4, 1024, 1024]⟩
abbrev S8x128 : Shape := ⟨2, ![8, 128]⟩
abbrev S4x1024 : Shape := ⟨2, ![4, 1024]⟩
abbrev S4x1x1024 : Shape := ⟨3, ![4, 1, 1024]⟩
abbrev S4x1 : Shape := ⟨2, ![4, 1]⟩
abbrev S4x1x1 : Shape := ⟨3, ![4, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S16x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .local _ .vmem, ⟨0, _⟩ => ⟨S4x1024x1024, .f32⟩
  | .local _ .vmem, ⟨1, _⟩ => ⟨S4x1024x1024, .f32⟩
  | .local _ .vmem, ⟨2, _⟩ => ⟨S8x128, .f32⟩
  | .local _ .vmem, ⟨3, _⟩ => ⟨S8x128, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4x1024x1024_S4x1024x1024_0_0_0 : ∀ a, (![0, 0, 0] : Fin 3 → Nat) a + S4x1024x1024.size a ≤ S4x1024x1024.size a
  h_S4x1024x1024 : 0 < S4x1024x1024.numel
  reduces_S4x1024x1024_S4x1024 : S4x1024x1024.Reduces [1] S4x1024
  shapeCasts_S4x1024_S4x1x1024 : S4x1024.ShapeCasts S4x1x1024
  reduces_S4x1x1024_S4x1 : S4x1x1024.Reduces [2] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1x1_S1x1 : S1x1x1.ShapeCasts S1x1
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x1024.size a ≤ S64x1024x1024.size a
  hwx0_0 : ∀ i : grid0.Coords, EltTy.bits .f32 = 32 ∨ (Rect.block (s := S64x1024x1024) S4x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_arg0) S4x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S64x1024x1024_S_d0_1_2 : S64x1024x1024.ReducesTo [0, 1, 2] S_
  h_S_ : 0 < S_.numel

variable [Facts₀]

class Facts : Prop extends Facts₀ where

variable [Facts]
-- ==== Proof.Reals.lean ====
/-
  Real numbers inside the extended reals.

  An extended real is REAL when it is the image of a real number: neither infinity. The reals are closed under
  sum, product and finite sums, and a real minus itself is zero. Over vectors: a vector all of whose entries are
  real stays so under every operation the accumulating body applies to it (a sum along axes, a re-indexing, a
  broadcast, an entrywise product or sum).

  These are the only facts about numbers the certificate needs: the program returns the truth value of
  |t - t| > ε for a total t, which is false as soon as t is a real number, whatever its value.
-/
import Idealize.ShloMosaic.PureOps
import Idealize.ShloMosaic.PureOps.Ideal
import Idealize.ShloMosaic.PureOps.Ideal.Laws

noncomputable section

namespace Cert.RealTotal

open Idealize.ShloMosaic

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real minus itself is zero (on the extended reals this fails at the infinities). -/
theorem IsReal.sub_self {x : EReal} (hx : IsReal x) : x - x = 0 := by
  obtain ⟨a, rfl⟩ := hx
  rw [← EReal.coe_sub, _root_.sub_self, EReal.coe_zero]

/-- A vector all of whose entries are real. -/
def AllReal {ι : Type} (v : ι → EReal) : Prop := ∀ i, IsReal (v i)

variable {s t : Shape}

/-- Summing a real vector along axes gives a real vector: each entry is a finite sum of entries. -/
theorem allReal_multiReduction_add {axes : List (Fin s.rank)} (src : FVec Ideal s .f32) (acc : BitVec 32)
    (h : s.Reduces axes t) (hφ : FKind.Formats .f32) (hacc : acc = FKind.add.neutral .f32 hφ) (hs : AllReal src) :
    AllReal (multiReduction .add axes t src acc h hφ hacc) := fun j => by
  show IsReal (Ideal.reduceAdd h src j)
  unfold Ideal.reduceAdd
  exact isReal_sum _ _ fun i _ => hs i

/-- A re-indexing reads entries of the source. -/
theorem allReal_shapeCast (x : s.Idx → EReal) (h : s.ShapeCasts t) (hx : AllReal x) : AllReal (shapeCast t x h) :=
  fun _ => hx _

theorem allReal_broadcastTo (x : s.Idx → EReal) (h : s.Broadcasts t) (hx : AllReal x) : AllReal (broadcastTo t x h) :=
  fun _ => hx _

theorem allReal_broadcast (x : EReal) (hx : IsReal x) : AllReal (broadcast t x) := fun _ => hx

theorem allReal_mulf (x y : FVec Ideal s .f32) (hx : AllReal x) (hy : AllReal y) : AllReal (mulf x y) :=
  fun i => (hx i).mul (hy i)

theorem allReal_addf (x y : FVec Ideal s .f32) (hx : AllReal x) (hy : AllReal y) : AllReal (addf x y) :=
  fun i => (hx i).add (hy i)

/-- The host's sum along axes of a real vector from a real initial value: the initial value plus a finite sum. -/
theorem allReal_hostReduceAdd {axes : List (Fin s.rank)} {u : Shape} (x : FVec Ideal s .f32) (init : u.Idx → Ideal .f32)
    (h : s.ReducesTo axes t) (hu : 0 < u.numel) (hx : AllReal x) (hi : AllReal init) :
    AllReal (Host.reduceAdd x init h hu) := fun j => by
  show IsReal (Ideal.hostReduceAdd h x (init (Shape.Idx.first hu)) j)
  unfold Ideal.hostReduceAdd
  exact (hi _).add (isReal_sum _ _ fun i _ => hx i)

end Cert.RealTotal

end
-- ==== Proof.Consts.lean ====
/-
  The three float literals of the two programs, as the extended reals their binary patterns denote:
  +0.0 is 0; 2^-10 (the reciprocal of the 8·128 entries of an output block) is the real 1/1024; the
  threshold ε (the f32 nearest 1e-6) is a positive real, of which only its sign matters; and the pattern of +∞ is ⊤.
-/
import Idealize.ShloMosaic.PureOps.Ideal
import Idealize.ShloMosaic.PureOps.Ideal.Laws

noncomputable section

namespace Cert.RealTotal.Consts

open Idealize.ShloMosaic

/-- 2^-10 = 1/1024. -/
theorem ofBits_inv1024 : Ideal.ofBits .f32 0x3A800000#32 = (((1 : ℝ) / 1024 : ℝ) : EReal) := by
  simp [Ideal.ofBits, Ideal.ieee, -EReal.coe_mul]; norm_num

/-- The threshold is not below zero. -/
theorem eps_nonneg : (0 : EReal) ≤ Ideal.ofBits .f32 0x358637BD#32 := by
  simp [Ideal.ofBits, Ideal.ieee, -EReal.coe_mul]

/-- The all-ones exponent with a zero fraction is +∞. -/
theorem ofBits_inf : Ideal.ofBits .f32 0x7F800000#32 = ⊤ := by
  simp [Ideal.ofBits, Ideal.ieee]

end Cert.RealTotal.Consts

end
-- ==== Proof.Finite.lean ====
/-
  The precondition read back: every entry of the input is a real number.

  The printed predicate is the conjunction, over all entries x of the input, of |x| < +∞, where |x| is max x (-x) on the
  extended reals and the literal's pattern (all-ones exponent, zero fraction) is ⊤. A conjunction that is the true bit
  has every conjunct true; and an extended real whose absolute value is below ⊤ is neither ⊤ nor ⊥.
-/
import proofs.«122823_j61933428409682_2_alg».proof.Pre_finite_inputs
import proofs.«122823_j61933428409682_2_alg».proof.Proof.Reals
import proofs.«122823_j61933428409682_2_alg».proof.Proof.Consts
import Idealize.ShloMosaic.Lib.ReduceAll

noncomputable section

namespace Cert.RealTotal

open Idealize.ShloMosaic

/-- An extended real whose absolute value is below ⊤ is a real number. -/
theorem isReal_of_abs_lt_top (x : EReal) (h : max x (-x) < ⊤) : IsReal x := by
  induction x using EReal.rec with
  | bot => exact absurd h (by simp)
  | top => exact absurd h (by simp)
  | coe r => exact ⟨r, rfl⟩

instance : Subsingleton Cert.Pre_finite_inputs.S_.Idx := ⟨fun a b => funext fun d => d.elim0⟩

/-- Where the printed predicate holds of an array, every entry of the array is real. -/
theorem allReal_of_finite [hF : Cert.Pre_finite_inputs.Facts]
    (x : FVec Ideal Cert.Pre_finite_inputs.S64x1024x1024 .f32)
    (h : Cert.Pre_finite_inputs.fn (F := Ideal) x = fun _ => 1#1) : AllReal x := by
  intro i
  have h0 := congrFun h (Shape.Idx.first hF.h_S_)
  dsimp only [Cert.Pre_finite_inputs.fn] at h0
  have hi := Host.reduce_andi_all _ _ _ _ _ h0 i
  have hlt : max (x i) (-(x i)) < Ideal.ofBits .f32 0x7F800000#32 := by
    by_contra hn
    have hb : BitVec.ofBool (decide (max (x i) (-(x i)) < Ideal.ofBits .f32 0x7F800000#32)) = 1#1 := hi
    rw [decide_eq_false hn] at hb
    exact absurd hb (by decide)
  rw [Consts.ofBits_inf] at hlt
  exact isReal_of_abs_lt_top _ hlt

end Cert.RealTotal

end
-- ==== Proof.Tail.lean ====
/-
  The last three operations of both programs, on a real total.

  Both programs end by computing, from a total t (a scalar array), the truth value of |t - t| > ε, where the
  absolute value of a is max a (-a) and ε is the f32 nearest 1e-6. When t is a real number, t - t = 0, |0| = 0,
  and 0 > ε is false because ε ≥ 0: the result is the false bit, whatever t is. (At t = ±∞ the extended reals give
  t - t = -∞ and the result would be true: this is where finiteness of the inputs is used.)
-/
import proofs.«122823_j61933428409682_2_alg».proof.Proof.Reals
import proofs.«122823_j61933428409682_2_alg».proof.Proof.Consts

noncomputable section

namespace Cert.RealTotal

open Idealize.ShloMosaic

variable {s : Shape}

/-- The zero splat is a real vector. -/
theorem allReal_constant_zero : AllReal (constant (F := Ideal) s .f32 0x00000000#32) := fun _ =>
  ⟨0, by show Ideal.ofBits .f32 0x00000000#32 = _; rw [Ideal.ofBits_zero_f32, EReal.coe_zero]⟩

/-- |t - t| > ε is false at every entry of a real vector t. -/
theorem tail_false (t : FVec Ideal s .f32) (ht : AllReal t) :
    cmpf .ogt (Host.absf (subf t t)) (constant (F := Ideal) s .f32 0x358637BD#32) = fun _ => 0#1 := by
  funext j
  show BitVec.ofBool (decide (Ideal.ofBits .f32 0x358637BD#32 < max (t j - t j) (-(t j - t j)))) = 0#1
  rw [(ht j).sub_self, neg_zero, max_self, decide_eq_false (not_lt.mpr Consts.eps_nonneg)]
  rfl

end Cert.RealTotal

end
-- ==== Proof.KernelReal.lean ====
/-
  The accumulating kernel on real inputs: its boolean result is the false bit.

  The grid has 16 points, two runs of eight. At point t the body adds, into every entry of an 8×128 output block, the
  sum of the t-th 4×1024×1024 block of x times 2^-10; at the first point of each run (t ≡ 0 mod 8) it first stores the
  zero block. The block is written back to rows 8p … 8p+7 of the 16×128 output array at the last point of run p
  (t ≡ 7 mod 8). After the region the host sums the output array to a total t, and returns |t - t| > ε.

  Only ONE property of the numbers is carried through: being a real number (not ±∞). The body's payload maps a
  real input block and a real accumulator block to a real block, so by induction on the point every block the body
  leaves is real; every entry of the output array is covered by one of the two write-backs, so the array is real;
  the host's total is a finite sum of reals; and at a real total the tail is false.
-/
import proofs.«122823_j61933428409682_2_alg».proof.Proof.Gen.KernelIdeal.Frame
import proofs.«122823_j61933428409682_2_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RealValue

open Cert.KernelIdeal Cert.KernelIdeal.Gen Cert.RealTotal

/-! ## What each case of the body leaves in the output block, at any float instance -/

section Body

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its run: the one store's payload, of the input block and of the block the
    point before left. -/
theorem out_B (c : Dev nD) (i : grid0.Coords) (a2 : Memref sig .tc .vmem S4x1024x1024 .f32) (h2 : a2.IsWhole)
    (a3 : Memref sig .tc .vmem S8x128 .f32) (h3 : a3.IsWhole) (hc : ¬cond0_0 i) (x : Vec F S4x1024x1024 .f32) (xo : Vec F S8x128 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S4x1024x1024) hz3, View.ld_unit_zero (S := S8x128) hz2]

/-- The first point of a run: the zero block is stored, read back, and the same payload applied to it. -/
theorem out_A (c : Dev nD) (i : grid0.Coords) (a2 : Memref sig .tc .vmem S4x1024x1024 .f32) (h2 : a2.IsWhole)
    (a3 : Memref sig .tc .vmem S8x128 .f32) (h3 : a3.IsWhole) (hc : cond0_0 i) (x : Vec F S4x1024x1024 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S4x1024x1024) hz3]

end Body

/-! ## On the extended reals: real blocks in, real blocks out -/

/-- The zero block is real. -/
theorem pay1_real : AllReal (k0_pay1 (F := Ideal)) := fun _ =>
  ⟨0, by show Ideal.ofBits .f32 0x00000000#32 = _; rw [Ideal.ofBits_zero_f32, EReal.coe_zero]⟩

/-- The payload: acc + (sum of the input block, as three nested sums along one axis each) · 2^-10, at every entry.
    Real when the input block and the accumulator are. -/
theorem pay2_real (x : Vec Ideal S4x1024x1024 .f32) (acc : Vec Ideal S8x128 .f32) (hx : AllReal x) (ha : AllReal acc) :
    AllReal (k0_pay2 (F := Ideal) x acc) := by
  unfold k0_pay2
  exact allReal_addf _ _ (allReal_shapeCast _ _ ha)
    (allReal_mulf _ _
      (allReal_broadcastTo _ _ (allReal_shapeCast _ _ (allReal_shapeCast _ _ (allReal_shapeCast _ _
        (allReal_multiReduction_add _ _ _ _ _ (allReal_shapeCast _ _ (allReal_multiReduction_add _ _ _ _ _
          (allReal_shapeCast _ _ (allReal_multiReduction_add _ _ _ _ _ hx)))))))))
      (allReal_broadcast _ ⟨1 / 1024, Consts.ofBits_inv1024⟩))

variable (m : (ℓ : Loc nD τ sig) → Buf (Elt Ideal) ℓ) (ρ : Dev nD → PrngReg)

/-- A block of a real array is real: its entries are entries of the array. -/
theorem iblk_real (c : Dev nD) (hx : AllReal (V m c main_arg0)) (t : Fin cfg0.N) : AllReal (iblk m c 0 t) := fun y => by
  unfold iblk
  rw [View.read_apply]
  exact hx _

/-- By induction on the point: what the body leaves in the output block after point n is real. -/
theorem outs_real (c : Dev nD) (hx : AllReal (V m c main_arg0)) : ∀ (n : ℕ) (hn : n < cfg0.N), AllReal (outsAt0 m c n hn)
  | 0, hn => by
    rw [outsAt0_A m c ⟨0, hn⟩ rfl, out_A]
    exact pay2_real _ _ (iblk_real m c hx _) pay1_real
  | n + 1, hn => by
    by_cases h0 : (n + 1) % 8 = 0
    · rw [outsAt0_A m c ⟨n + 1, hn⟩ h0, out_A]
      exact pay2_real _ _ (iblk_real m c hx _) pay1_real
    · rw [outsAt0_B m c ⟨n + 1, hn⟩ h0, out_B]
      exact pay2_real _ _ (iblk_real m c hx _) (outs_real c hx n _)

/-- So every entry a write-back writes is real. -/
theorem flushed_real (c : Dev nD) (hx : AllReal (V m c main_arg0)) (t : Fin cfg0.N)
    (y : ((cfg0.win 1).xblock (cfg0.grid.coords t)).Idx) : IsReal ((dats m 0 c).flushed 1 t y) := by
  show IsReal ((dats m 0 c).after 1 t _)
  rw [after0_1]
  exact outs_real m c hx t.val t.isLt _

/-- Rows 0–7 of the output array are written back at point 7, rows 8–15 at point 15. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 16 := (i 0).isLt
  have h1 : (i 1 : Nat) < 128 := (i 1).isLt
  by_cases hr : (i 0 : Nat) < 8
  · refine ⟨t0_7, (flush0_1 t0_7).mpr rfl, ?_⟩
    show i ∈ ((View.whole main_v0).slice (win0_1.rect t0_7)).set
    rw [View.set_slice_whole, Rect.mem_set_unit]
    intro a
    match a with
    | ⟨0, _⟩ =>
      show win0_1.index t0_7 0 * win0_1.size 0 ≤ (i 0 : Nat) ∧ (i 0 : Nat) < win0_1.index t0_7 0 * win0_1.size 0 + win0_1.xsize (grid0.coords t0_7) 0
      rw [show win0_1.index t0_7 0 * win0_1.size 0 = 0 from by decide +kernel, show win0_1.xsize (grid0.coords t0_7) 0 = 8 from by decide +kernel]; omega
    | ⟨1, _⟩ =>
      show win0_1.index t0_7 1 * win0_1.size 1 ≤ (i 1 : Nat) ∧ (i 1 : Nat) < win0_1.index t0_7 1 * win0_1.size 1 + win0_1.xsize (grid0.coords t0_7) 1
      rw [show win0_1.index t0_7 1 * win0_1.size 1 = 0 from by decide +kernel, show win0_1.xsize (grid0.coords t0_7) 1 = 128 from by decide +kernel]; omega
  · refine ⟨t0_15, (flush0_1 t0_15).mpr rfl, ?_⟩
    show i ∈ ((View.whole main_v0).slice (win0_1.rect t0_15)).set
    rw [View.set_slice_whole, Rect.mem_set_unit]
    intro a
    match a with
    | ⟨0, _⟩ =>
      show win0_1.index t0_15 0 * win0_1.size 0 ≤ (i 0 : Nat) ∧ (i 0 : Nat) < win0_1.index t0_15 0 * win0_1.size 0 + win0_1.xsize (grid0.coords t0_15) 0
      rw [show win0_1.index t0_15 0 * win0_1.size 0 = 8 from by decide +kernel, show win0_1.xsize (grid0.coords t0_15) 0 = 8 from by decide +kernel]; omega
    | ⟨1, _⟩ =>
      show win0_1.index t0_15 1 * win0_1.size 1 ≤ (i 1 : Nat) ∧ (i 1 : Nat) < win0_1.index t0_15 1 * win0_1.size 1 + win0_1.xsize (grid0.coords t0_15) 1
      rw [show win0_1.index t0_15 1 * win0_1.size 1 = 0 from by decide +kernel, show win0_1.xsize (grid0.coords t0_15) 1 = 128 from by decide +kernel]; omega

/-- Every entry of the output array after the region is real: whichever write-back wrote it last wrote a real. -/
theorem final_real (c : Dev nD) (hx : AllReal (V m c main_arg0)) : AllReal ((dats m 0 c).arrAt 1 cfg0.N) := fun i =>
  (dats m 0 c).arrAt_forall_of_cover 1 (fun _ v => IsReal v)
    (fun t _ y => by rw [cast_eq]; exact flushed_real m c hx t y) (cover c) i

/-- The host operations after the region: the total of the (real) output array is real, so the result is the false bit. -/
theorem tail_eq (c : Dev nD) (hx : AllReal (V m c main_arg0)) :
    Pipeline.afterTail₀ cfgs (dats m) 0 (V0 m) [hostOps1] c main_v4 = fun _ => 0#1 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v0)
      = (dats m 0 c).arrAt 1 cfg0.N := Pipeline.withArrays_arr spec0 launch0.win.arr_inj c _ _ 1
  rw [e]
  exact tail_false _ (allReal_hostReduceAdd _ _ _ _ (final_real m c hx) allReal_constant_zero)

/-- The run, read: on real inputs every weakly fair execution ends with the result at the false bit and the argument
    unchanged. -/
theorem run (hx : ∀ c : Dev nD, AllReal (m ((c.tc : Thread nD τ).loc main_arg0))) :
    θ_run defs (onTc (τ := τ) (main (F := Ideal))) ⟨m, fun _ => 0, ρ⟩ fun r => ∀ c : Dev nD,
      r.2.mem ((c.tc : Thread nD τ).loc main_v4) = (fun _ => 0#1)
      ∧ r.2.mem ((c.tc : Thread nD τ).loc main_arg0) = m ((c.tc : Thread nD τ).loc main_arg0) :=
  (θ_run defs _ _).mono (fun _ h c =>
      ⟨((h c).2 main_v4 (by decide)).trans (tail_eq m c (hx c)),
       ((h c).1 0).trans (((dats m 0 c).arrAt_in 0 rfl _).trans ((A_eq m c 0).trans (V_main_arg0 m c)))⟩)
    (run_main m ρ)

end Cert.KernelIdeal.RealValue

end
-- ==== Proof.RefReal.lean ====
/-
  The reference on real inputs: its boolean result is the false bit.

  The reference sums the whole input twice from zero, subtracts the two totals, and returns |difference| > ε. The two
  totals are the same term t = 0 + Σ x, a finite sum of reals when every entry of x is real; so the result is the
  tail at a real total, which is false.
-/
import proofs.«122823_j61933428409682_2_alg».proof.Proof.Gen.ReferenceIdeal.Run
import proofs.«122823_j61933428409682_2_alg».proof.Proof.Tail

noncomputable section

namespace Cert.ReferenceIdeal.RealValue

open Cert.ReferenceIdeal Cert.RealTotal Idealize.ShloMosaic

/-- The reference's result term at a real array. -/
theorem result_false (x : FVec Ideal S64x1024x1024 .f32) (h : S64x1024x1024.ReducesTo [0, 1, 2] S_) (hu : 0 < S_.numel)
    (hx : AllReal x) :
    cmpf .ogt (Host.absf (subf (Host.reduceAdd x (constant S_ .f32 0x00000000#32) h hu)
        (Host.reduceAdd x (constant S_ .f32 0x00000000#32) h hu))) (constant S_ .f32 0x358637BD#32)
      = fun _ => 0#1 :=
  tail_false _ (allReal_hostReduceAdd _ _ _ _ hx allReal_constant_zero)

end Cert.ReferenceIdeal.RealValue

end
-- ==== Proof.lean ====
/-
  Proof of the certificate's claim for the accumulating full-sum kernel against jnp's sum.

  Both programs return one truth value: |t - t| > ε, where t is the program's total of the input x (64×1024×1024) and
  ε is the f32 nearest 1e-6. The kernel's t is the host's sum of a 16×128 array whose block p (rows 8p … 8p+7) holds,
  at every entry, the sum over the eight 4×1024×1024 blocks of half p of x of (block sum)·2^-10, accumulated across
  eight grid points; the reference's t is 0 + Σ x, computed twice.

  Under the precondition every entry of x is a real number. Then every entry the kernel's body ever leaves in its
  output block is real (by induction over the grid points), so the output array is real, so the kernel's total is
  real; the reference's total is a finite sum of reals. At a real total t - t = 0, |0| = 0, and 0 > ε is false. So both
  programs end with the false bit: the results are equal. The values of the two totals are never compared; on the
  extended reals the statement needs finiteness exactly because at t = ±∞ the difference t - t is -∞ and the answer
  flips to true.

  The three frames: the kernel's and its idealization's are the generated frame runs; the reference has no kernel, and
  its frame is its generated run with the result dropped. The idealization rewrote nothing, so "preserves" is trivial.
-/
import proofs.«122823_j61933428409682_2_alg».proof.Defs
import proofs.«122823_j61933428409682_2_alg».proof.Proof.Gen.Kernel
import proofs.«122823_j61933428409682_2_alg».proof.Proof.Gen.Kernel.Skeleton
import proofs.«122823_j61933428409682_2_alg».proof.Proof.Gen.Kernel.Launch
import proofs.«122823_j61933428409682_2_alg».proof.Proof.Gen.Kernel.Points
import proofs.«122823_j61933428409682_2_alg».proof.Proof.Gen.Kernel.Frame
import proofs.«122823_j61933428409682_2_alg».proof.Proof.Gen.KernelIdeal
import proofs.«122823_j61933428409682_2_alg».proof.Proof.Gen.KernelIdeal.Skeleton
import proofs.«122823_j61933428409682_2_alg».proof.Proof.Gen.KernelIdeal.Launch
import proofs.«122823_j61933428409682_2_alg».proof.Proof.Gen.KernelIdeal.Points
import proofs.«122823_j61933428409682_2_alg».proof.Proof.Gen.KernelIdeal.Frame
import proofs.«122823_j61933428409682_2_alg».proof.Proof.Gen.ReferenceIdeal
import proofs.«122823_j61933428409682_2_alg».proof.Proof.Gen.Pre_finite_inputs
import proofs.«122823_j61933428409682_2_alg».proof.Proof.Gen.ReferenceIdeal.Run
import proofs.«122823_j61933428409682_2_alg».proof.Proof.Gen.ReferenceIdeal.Read
import proofs.«122823_j61933428409682_2_alg».proof.Proof.Finite
import proofs.«122823_j61933428409682_2_alg».proof.Proof.KernelReal
import proofs.«122823_j61933428409682_2_alg».proof.Proof.RefReal
import Idealize.ShloMosaic.Adequacy
import Idealize.ShloMosaic.Init

noncomputable section

namespace Cert.Proof

open Idealize.ShloMosaic Idealize.SL.Sem Cert.RealTotal

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on x, with x finite: the kernel ends at the false bit (its run on real inputs) and so does
    the reference (its generated run, whose result term is the tail at a real total). -/
theorem algebraic : Cert.algebraic_KernelIdeal_ReferenceIdeal := by
  intro m ρ m' ρ' hpre hagree
  have hx : ∀ c : Dev Cert.KernelIdeal.nD,
      AllReal (m ((c.tc : Thread Cert.KernelIdeal.nD Cert.KernelIdeal.τ).loc Cert.KernelIdeal.main_arg0)) :=
    fun c => allReal_of_finite _ (hpre c)
  refine ⟨fun _ => fun _ => 0#1, Cert.KernelIdeal.RealValue.run m ρ hx, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RealValue.result_false _ _ _ (hx c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
